-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048x512 : Shape := ⟨3, ![4, 2048, 512]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn {F : FTy → Type} [FloatOps F] (main_arg0 : FVec F S4x2048x2048 .f32) (main_arg1 : FVec F S4x2048x512 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  main_v8
-- ==== Kernel.lean ====
abbrev S4x2048x2048 : Shape := ⟨3, ![4, 2048, 2048]⟩
abbrev S4x2048x512 : Shape := ⟨3, ![4, 2048, 512]⟩
abbrev S1x256x2048 : Shape := ⟨3, ![1, 256, 2048]⟩
abbrev S1x2048x512 : Shape := ⟨3, ![1, 2048, 512]⟩
abbrev S1x256x512 : Shape := ⟨3, ![1, 256, 512]⟩
abbrev S256x2048 : Shape := ⟨2, ![256, 2048]⟩
abbrev S2048x512 : Shape := ⟨2, ![2048, 512]⟩
abbrev S2048 : Shape := ⟨1, ![2048]⟩
abbrev S2048x1 : Shape := ⟨2, ![2048, 1]⟩
abbrev S1x2048 : Shape := ⟨2, ![1, 2048]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x256x512, .f32⟩
  | .local _ .vmem, ⟨5, _⟩ => ⟨S1x256x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  reduces_S2048x512_S2048 : S2048x512.Reduces [1] S2048
  shapeCasts_S2048_S2048x1 : S2048.ShapeCasts S2048x1
  transposes_S2048x1_p1_0_S1x2048 : S2048x1.Transposes [1, 0] S1x2048
  reduces_S256x512_S256 : S256x512.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x2048_S2048x512_S256x512_1_0_0_1_n_n_wf : DotDims.WF S256x2048 S2048x512 S256x512 [1] [0] [0] [1] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .f32 = 32 ∨ (Rect.block (s := S4x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x512.size a
  hwx0_1 : ∀ i : grid0.Coords, EltTy.bits .f32 = 32 ∨ (Rect.block (s := S4x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x2048x512.size a
  hwx0_2 : ∀ i : grid0.Coords, EltTy.bits .f32 = 32 ∨ (Rect.block (s := S4x2048x512) S1x256x512.size (cc0_transform_2 i) (hinb0_2 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 135
  | .vmem => 0
  | .smem => 0
  | _ => 0

abbrev hbmTy0_0 (i : Nat) : BufTy := match i % 128 with
  | 0 => ⟨S4x2048x2048, .f32⟩
  | 1 => ⟨S4x2048x512, .f32⟩
  | 2 => ⟨S4x2048x512, .f32⟩
  | 3 => ⟨S4x2048x512, .f32⟩
  | 4 => ⟨S_, .f32⟩
  | 5 => ⟨S4x2048, .f32⟩
  | 6 => ⟨S4x2048x1, .f32⟩
  | 7 => ⟨S4x2048x512, .f32⟩
  | 8 => ⟨S_, .f32⟩
  | 9 => ⟨S4x2048, .f32⟩
  | 10 => ⟨S4x1x2048, .f32⟩
  | 11 => ⟨S4x2048x2048, .f32⟩
  | 12 => ⟨S4x2048x2048, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S_, .f32⟩
  | 27 => ⟨S4x2048x2048, .f32⟩
  | 28 => ⟨S4x2048x2048, .f32⟩
  | 29 => ⟨S4x2048x2048, .f32⟩
  | 30 => ⟨S4x2048x2048, .f32⟩
  | 31 => ⟨S_, .f32⟩
  | 32 => ⟨S4x2048, .f32⟩
  | 33 => ⟨S4x2048x1, .f32⟩
  | 34 => ⟨S_, .f32⟩
  | 35 => ⟨S4x2048x1, .f32⟩
  | 36 => ⟨S4x2048x1, .f32⟩
  | 37 => ⟨S4x2048x2048, .f32⟩
  | 38 => ⟨S4x2048x2048, .f32⟩
  | 39 => ⟨S_, .f32⟩
  | 40 => ⟨S4x2048x512, .f32⟩
  | 41 => ⟨S4x2048x512, .f32⟩
  | 42 => ⟨S4x2048x512, .f32⟩
  | 43 => ⟨S_, .f32⟩
  | 44 => ⟨S4x2048x512, .f32⟩
  | 45 => ⟨S4x2048x512, .f32⟩
  | 46 => ⟨S4x2048x512, .f32⟩
  | 47 => ⟨S4x2048x512, .f32⟩
  | 48 => ⟨S_, .f32⟩
  | 49 => ⟨S4x2048, .f32⟩
  | 50 => ⟨S4x2048x1, .f32⟩
  | 51 => ⟨S4x2048x512, .f32⟩
  | 52 => ⟨S_, .f32⟩
  | 53 => ⟨S4x2048, .f32⟩
  | 54 => ⟨S4x1x2048, .f32⟩
  | 55 => ⟨S4x2048x2048, .f32⟩
  | 56 => ⟨S4x2048x2048, .f32⟩
  | 57 => ⟨S4x2048x2048, .f32⟩
  | 58 => ⟨S4x2048x2048, .f32⟩
  | 59 => ⟨S_, .f32⟩
  | 60 => ⟨S4x2048x2048, .f32⟩
  | 61 => ⟨S4x2048x2048, .f32⟩
  | 62 => ⟨S4x2048x2048, .f32⟩
  | 63 => ⟨S_, .f32⟩
  | 64 => ⟨S4x2048x2048, .f32⟩
  | 65 => ⟨S4x2048x2048, .f32⟩
  | 66 => ⟨S4x2048x2048, .f32⟩
  | 67 => ⟨S_, .f32⟩
  | 68 => ⟨S4x2048x2048, .f32⟩
  | 69 => ⟨S4x2048x2048, .f32⟩
  | 70 => ⟨S_, .f32⟩
  | 71 => ⟨S4x2048x2048, .f32⟩
  | 72 => ⟨S4x2048x2048, .f32⟩
  | 73 => ⟨S4x2048x2048, .f32⟩
  | 74 => ⟨S4x2048x2048, .f32⟩
  | 75 => ⟨S_, .f32⟩
  | 76 => ⟨S4x2048, .f32⟩
  | 77 => ⟨S4x2048x1, .f32⟩
  | 78 => ⟨S_, .f32⟩
  | 79 => ⟨S4x2048x1, .f32⟩
  | 80 => ⟨S4x2048x1, .f32⟩
  | 81 => ⟨S4x2048x2048, .f32⟩
  | 82 => ⟨S4x2048x2048, .f32⟩
  | 83 => ⟨S_, .f32⟩
  | 84 => ⟨S4x2048x512, .f32⟩
  | 85 => ⟨S4x2048x512, .f32⟩
  | 86 => ⟨S4x2048x512, .f32⟩
  | 87 => ⟨S_, .f32⟩
  | 88 => ⟨S4x2048x512, .f32⟩
  | 89 => ⟨S4x2048x512, .f32⟩
  | 90 => ⟨S4x2048x512, .f32⟩
  | 91 => ⟨S4x2048x512, .f32⟩
  | 92 => ⟨S_, .f32⟩
  | 93 => ⟨S4x2048, .f32⟩
  | 94 => ⟨S4x2048x1, .f32⟩
  | 95 => ⟨S4x2048x512, .f32⟩
  | 96 => ⟨S_, .f32⟩
  | 97 => ⟨S4x2048, .f32⟩
  | 98 => ⟨S4x1x2048, .f32⟩
  | 99 => ⟨S4x2048x2048, .f32⟩
  | 100 => ⟨S4x2048x2048, .f32⟩
  | 101 => ⟨S4x2048x2048, .f32⟩
  | 102 => ⟨S4x2048x2048, .f32⟩
  | 103 => ⟨S_, .f32⟩
  | 104 => ⟨S4x2048x2048, .f32⟩
  | 105 => ⟨S4x2048x2048, .f32⟩
  | 106 => ⟨S4x2048x2048, .f32⟩
  | 107 => ⟨S_, .f32⟩
  | 108 => ⟨S4x2048x2048, .f32⟩
  | 109 => ⟨S4x2048x2048, .f32⟩
  | 110 => ⟨S4x2048x2048, .f32⟩
  | 111 => ⟨S_, .f32⟩
  | 112 => ⟨S4x2048x2048, .f32⟩
  | 113 => ⟨S4x2048x2048, .f32⟩
  | 114 => ⟨S_, .f32⟩
  | 115 => ⟨S4x2048x2048, .f32⟩
  | 116 => ⟨S4x2048x2048, .f32⟩
  | 117 => ⟨S4x2048x2048, .f32⟩
  | 118 => ⟨S4x2048x2048, .f32⟩
  | 119 => ⟨S_, .f32⟩
  | 120 => ⟨S4x2048, .f32⟩
  | 121 => ⟨S4x2048x1, .f32⟩
  | 122 => ⟨S_, .f32⟩
  | 123 => ⟨S4x2048x1, .f32⟩
  | 124 => ⟨S4x2048x1, .f32⟩
  | 125 => ⟨S4x2048x2048, .f32⟩
  | 126 => ⟨S4x2048x2048, .f32⟩
  | 127 => ⟨S_, .f32⟩
  | _ => ⟨S4x2048x2048, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S_, .f32⟩
  | 4 => ⟨S4x2048x512, .f32⟩
  | 5 => ⟨S4x2048x512, .f32⟩
  | 6 => ⟨S4x2048x512, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_13 : Ref sig .tc := ⟨.hbm, 67, rfl⟩
abbrev main_v51 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_18 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_19 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_20 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_21 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_22 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_23 : Ref sig .tc := ⟨.hbm, 111, rfl⟩
abbrev main_v85 : Ref sig .tc := ⟨.hbm, 112, rfl⟩
abbrev main_v86 : Ref sig .tc := ⟨.hbm, 113, rfl⟩
abbrev main_cst_24 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_25 : Ref sig .tc := ⟨.hbm, 119, rfl⟩
abbrev main_v91 : Ref sig .tc := ⟨.hbm, 120, rfl⟩
abbrev main_v92 : Ref sig .tc := ⟨.hbm, 121, rfl⟩
abbrev main_cst_26 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_27 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_28 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  bcast_S_S4x2048x1 : S_.BroadcastsInDim S4x2048x1 (![] : Fin 0 → Fin S4x2048x1.rank)
  bcast_S_S4x2048x512 : S_.BroadcastsInDim S4x2048x512 (![] : Fin 0 → Fin S4x2048x512.rank)
  dot_S4x2048x2048_S4x2048x512_S4x2048x512_2_1_1_2_0_0_wf : DotDims.WF S4x2048x2048 S4x2048x512 S4x2048x512 [2] [1] [1] [2] [0] [0]
  dot_S4x2048x512_S4x2048x512_S4x2048x2048_2_2_1_1_0_0_wf : DotDims.WF S4x2048x512 S4x2048x512 S4x2048x2048 [2] [2] [1] [1] [0] [0]

variable [Facts₀]

def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf

class Facts : Prop extends Facts₀ where

variable [Facts]
-- ==== Proof.Spec.lean ====
/-
  The function both programs compute, one row at a time.

  Fix a batch: a table `v` of 2048 points in 512 dimensions and, for one output row, 2048 nonnegative-looking affinities `a`
  (nothing below needs their sign).  The row starts at the affinity-weighted sum of the points, `start a v = ∑ₖ a k · v k`,
  and is then updated three times by the same step.  A step takes the current row `M`, measures its squared distance to
  every point through the expansion `|M|² + |v k|² − 2·⟨M, v k⟩`, clamps that at zero, takes the root, and weighs point `k` by
  `a k / (distance + 0.01)`; the weights are divided by their absolute sum (itself kept above `10⁻¹²`), and the new row is
  `0 · M + 1 · ∑ₖ weightₖ · v k`.  Every operation is the exact one on the extended reals, and the four constants are kept as
  the binary words both programs print, so nothing about their values is ever used.
-/
import Idealize.ShloMosaic.PureOps.Ideal
import Idealize.ShloMosaic.Lib.ValueIdx

noncomputable section

open scoped BigOperators

namespace Cert.RobustSum

open Idealize.ShloMosaic Idealize.ShloMosaic.ValueIdx

/-- The weight of one point: `a / (√(max (x2 + y2 − 2·xy) 0) + 0.01)`, written as the product `(1 / …) · a`. -/
def weight (x2 y2 xy a : EReal) : EReal :=
  Ideal.div (Ideal.ofBits .f32 0x3F800000#32)
    (Ideal.sqrt (max (x2 + y2 - Ideal.ofBits .f32 0x40000000#32 * xy) (Ideal.ofBits .f32 0x00000000#32))
      + Ideal.ofBits .f32 0x3C23D70A#32) * a

/-- The squared length of point `k`. -/
def sqLen (v : Fin 2048 → Fin 512 → EReal) (k : Fin 2048) : EReal := ∑ j : Fin 512, v k j * v k j

/-- The weights of all points against the row `M`. -/
def weights (a : Fin 2048 → EReal) (v : Fin 2048 → Fin 512 → EReal) (M : Fin 512 → EReal) (k : Fin 2048) : EReal :=
  weight (∑ j : Fin 512, M j * M j) (sqLen v k) (∑ j : Fin 512, M j * v k j) (a k)

/-- The absolute sum of the weights, kept above the smallest divisor. -/
def absSum (w : Fin 2048 → EReal) : EReal :=
  max (∑ k : Fin 2048, max (w k) (-(w k))) (Ideal.ofBits .f32 0x2B8CBCCC#32)

/-- The new row from normalised weights: `0 · M + 1 · ∑ₖ (wₖ / absSum w) · v k`. -/
def blend (w : Fin 2048 → EReal) (v : Fin 2048 → Fin 512 → EReal) (M : Fin 512 → EReal) (j : Fin 512) : EReal :=
  Ideal.ofBits .f32 0x00000000#32 * M j
    + Ideal.ofBits .f32 0x3F800000#32 * ∑ k : Fin 2048, Ideal.div (w k) (absSum w) * v k j

/-- One update of a row. -/
def step (a : Fin 2048 → EReal) (v : Fin 2048 → Fin 512 → EReal) (M : Fin 512 → EReal) : Fin 512 → EReal :=
  blend (weights a v M) v M

/-- The row before the first update. -/
def start (a : Fin 2048 → EReal) (v : Fin 2048 → Fin 512 → EReal) (j : Fin 512) : EReal := ∑ k : Fin 2048, a k * v k j

/-- A row after its three updates. -/
def row (a : Fin 2048 → EReal) (v : Fin 2048 → Fin 512 → EReal) : Fin 512 → EReal :=
  step a v (step a v (step a v (start a v)))

/-- The whole result: entry `(b, p, j)` is row `p` of batch `b`, which depends on row `p` of `A b` and on all of `V b`. -/
def G (A : (⟨3, ![4, 2048, 2048]⟩ : Shape).Idx → EReal) (V : (⟨3, ![4, 2048, 512]⟩ : Shape).Idx → EReal) :
    (⟨3, ![4, 2048, 512]⟩ : Shape).Idx → EReal := fun i =>
  row (fun k => A (ix3 (i 0) (i 1) k)) (fun k j => V (ix3 (i 0) k j)) (i 2)

/-- A step depends on the row only through its entries. -/
theorem step_congr (a : Fin 2048 → EReal) (v : Fin 2048 → Fin 512 → EReal) {M M' : Fin 512 → EReal} (h : ∀ j, M j = M' j) :
    step a v M = step a v M' := by rw [funext h]

end Cert.RobustSum

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.KernelStages.lean ====
/-
  The kernel's body on one block, read one entry at a time.

  A block holds 256 rows `A'` of the affinities and the whole point table `Vb` of one batch.  The body forms the squared
  lengths of the points once (a row `yrow` spread over the 256 rows), the starting rows `A' · Vb`, and then three times the same
  stage: the squared lengths of the current rows (a column spread over 2048 columns), the inner products of rows with
  points (a product contracting the columns of both), the weights, their normalisation by the row's absolute sum, and
  the product of the normalised weights with the points.  Read at entry `(p, ·)` each stage is the row step of the
  specification applied to row `p`: sums along a row are plain sums, the spreads read the column or the row they spread,
  and a change of float format is the identity.
-/
import proofs.«155479_j16544214024900_1_alg».proof.Proof.Gen.KernelIdeal
import proofs.«155479_j16544214024900_1_alg».proof.Proof.Spec
import proofs.«155479_j16544214024900_1_alg».proof.Proof.LibColumns
import proofs.«155479_j16544214024900_1_alg».proof.Proof.LibPlainDot
import proofs.«155479_j16544214024900_1_alg».proof.Proof.LibDotRows
import Idealize.ShloMosaic.Lib.ValueLayout
import Idealize.ShloMosaic.Lib.Pipeline.Value

noncomputable section

open scoped BigOperators

namespace Cert.KernelIdeal.Stages

open Cert.KernelIdeal Cert.KernelIdeal.Facts₀ Idealize.ShloMosaic Idealize.ShloMosaic.ValueIdx

variable (A' : FVec Ideal S256x2048 .f32) (Vb : FVec Ideal S2048x512 .bf16) (yrow : FVec Ideal S1x2048 .f32)

/-- The squared lengths of the rows of `M`, each spread along its row. -/
def rowSq (M : FVec Ideal S256x512 .f32) : FVec Ideal S256x2048 .f32 :=
  broadcastTo S256x2048 (shapeCast S256x1 (multiReduction .add [1] S256 (mulf M M) 0x00000000#32 reduces_S256x512_S256 (.inl rfl) rfl) shapeCasts_S256_S256x1) broadcasts_S256x1_S256x2048

/-- The inner products of the rows of `M` with the points. -/
def cross (M : FVec Ideal S256x512 .f32) : FVec Ideal S256x2048 .f32 :=
  matmul dot_S256x512_S2048x512_S256x2048_1_1_0_0_n_n none (truncf .bf16 M bitsLt_bf16_f32) Vb (constant S256x2048 .f32 0x00000000#32)

/-- The weights of the points against the rows of `M`. -/
def weights (M : FVec Ideal S256x512 .f32) : FVec Ideal S256x2048 .f32 :=
  mulf (divf (broadcast S256x2048 (Scalar.ofBits .f32 0x3F800000#32 : Ideal .f32))
      (addf (sqrt (maximumf (subf (addf (rowSq M) (broadcastTo S256x2048 yrow broadcasts_S1x2048_S256x2048))
              (mulf (broadcast S256x2048 (Scalar.ofBits .f32 0x40000000#32 : Ideal .f32)) (cross Vb M)))
            (broadcast S256x2048 (Scalar.ofBits .f32 0x00000000#32 : Ideal .f32))))
        (broadcast S256x2048 (Scalar.ofBits .f32 0x3C23D70A#32 : Ideal .f32)))) A'

/-- The weights divided by their row's absolute sum, times the points. -/
def mean (W : FVec Ideal S256x2048 .f32) : FVec Ideal S256x512 .f32 :=
  matmul dot_S256x2048_S2048x512_S256x512_1_0_0_1_n_n none
    (truncf .bf16 (divf W (broadcastTo S256x2048
      (maximumf (shapeCast S256x1 (multiReduction .add [1] S256 (absf W) 0x00000000#32 reduces_S256x2048_S256 (.inl rfl) rfl) shapeCasts_S256_S256x1)
        (broadcast S256x1 (Scalar.ofBits .f32 0x2B8CBCCC#32 : Ideal .f32))) broadcasts_S256x1_S256x2048)) bitsLt_bf16_f32)
    Vb (constant S256x512 .f32 0x00000000#32)

/-- `0 · M + 1 · Mn`. -/
def blend (M Mn : FVec Ideal S256x512 .f32) : FVec Ideal S256x512 .f32 :=
  addf (mulf (broadcast S256x512 (Scalar.ofBits .f32 0x00000000#32 : Ideal .f32)) M)
    (mulf (broadcast S256x512 (Scalar.ofBits .f32 0x3F800000#32 : Ideal .f32)) Mn)

/-- One update of the 256 rows. -/
def step (M : FVec Ideal S256x512 .f32) : FVec Ideal S256x512 .f32 :=
  blend M (mean Vb (weights A' Vb yrow M))

/-- The starting rows. -/
def start : FVec Ideal S256x512 .f32 :=
  matmul dot_S256x2048_S2048x512_S256x512_1_0_0_1_n_n none (truncf .bf16 A' bitsLt_bf16_f32) Vb (constant S256x512 .f32 0x00000000#32)

/-- The squared lengths of the points as one row. -/
def sqRow (V3 : FVec Ideal S2048x512 .f32) : FVec Ideal S1x2048 .f32 :=
  transpose S1x2048 [1, 0] (shapeCast S2048x1 (multiReduction .add [1] S2048 (mulf V3 V3) 0x00000000#32 reduces_S2048x512_S2048 (.inl rfl) rfl) shapeCasts_S2048_S2048x1) transposes_S2048x1_p1_0_S1x2048

theorem rowSq_apply (M : FVec Ideal S256x512 .f32) (p : Fin 256) (k : Fin 2048) :
    rowSq M (ix2 p k) = ∑ j : Fin 512, (M (ix2 p j) : EReal) * (M (ix2 p j) : EReal) := by
  unfold rowSq
  exact (LibColumns.broadcastTo_a1_ab_apply _ broadcasts_S256x1_S256x2048 p k).trans
    ((LibColumns.shapeCast_a_a1_apply _ shapeCasts_S256_S256x1 p 0).trans
      (LibColumns.rowSum_apply (mulf M M) 0x00000000#32 reduces_S256x512_S256 (.inl rfl) rfl p))

theorem cross_apply (M : FVec Ideal S256x512 .f32) (p : Fin 256) (k : Fin 2048) :
    cross Vb M (ix2 p k) = ∑ j : Fin 512, (M (ix2 p j) : EReal) * (Vb (ix2 k j) : EReal) := by
  unfold cross
  exact DotRows.matmul_zero_apply dot_S256x512_S2048x512_S256x2048_1_1_0_0_n_n rfl rfl (fun _ _ => rfl) (fun _ _ => rfl)
    (fun _ _ => rfl) (fun _ _ => rfl) none (truncf .bf16 M bitsLt_bf16_f32) Vb p k

theorem spread_apply (p : Fin 256) (k : Fin 2048) :
    broadcastTo S256x2048 yrow broadcasts_S1x2048_S256x2048 (ix2 p k) = yrow (ix2 (0 : Fin 1) k) :=
  broadcastTo_1b_ab_apply yrow broadcasts_S1x2048_S256x2048 p k

theorem weights_apply (M : FVec Ideal S256x512 .f32) (p : Fin 256) (k : Fin 2048) :
    weights A' Vb yrow M (ix2 p k)
      = RobustSum.weight (∑ j : Fin 512, (M (ix2 p j) : EReal) * (M (ix2 p j) : EReal)) (yrow (ix2 (0 : Fin 1) k))
          (∑ j : Fin 512, (M (ix2 p j) : EReal) * (Vb (ix2 k j) : EReal)) (A' (ix2 p k)) := by
  have e : weights A' Vb yrow M (ix2 p k)
      = RobustSum.weight (rowSq M (ix2 p k)) (broadcastTo S256x2048 yrow broadcasts_S1x2048_S256x2048 (ix2 p k))
          (cross Vb M (ix2 p k)) (A' (ix2 p k)) := rfl
  rw [e, rowSq_apply, cross_apply, spread_apply]

theorem mean_apply (W : FVec Ideal S256x2048 .f32) (w : Fin 2048 → EReal) (p : Fin 256) (hW : ∀ k, W (ix2 p k) = w k) (j : Fin 512) :
    mean Vb W (ix2 p j) = ∑ k : Fin 2048, Ideal.div (w k) (RobustSum.absSum w) * (Vb (ix2 k j) : EReal) := by
  unfold mean
  refine (PlainDot.matmul_zero_apply dot_S256x2048_S2048x512_S256x512_1_0_0_1_n_n rfl rfl (fun _ _ => rfl) (fun _ _ => rfl)
    (fun _ _ => rfl) (fun _ _ => rfl) none _ Vb p j).trans ?_
  refine Finset.sum_congr rfl fun k _ => congrArg (· * (Vb (ix2 k j) : EReal)) ?_
  have hd : broadcastTo S256x2048
      (maximumf (shapeCast S256x1 (multiReduction .add [1] S256 (absf W) 0x00000000#32 reduces_S256x2048_S256 (.inl rfl) rfl) shapeCasts_S256_S256x1)
        (broadcast S256x1 (Scalar.ofBits .f32 0x2B8CBCCC#32 : Ideal .f32))) broadcasts_S256x1_S256x2048 (ix2 p k)
      = RobustSum.absSum w := by
    refine (LibColumns.broadcastTo_a1_ab_apply _ broadcasts_S256x1_S256x2048 p k).trans ?_
    refine congrArg (max · (Ideal.ofBits .f32 0x2B8CBCCC#32)) ?_
    refine (LibColumns.shapeCast_a_a1_apply _ shapeCasts_S256_S256x1 p 0).trans ?_
    refine (LibColumns.rowSum_apply (absf W) 0x00000000#32 reduces_S256x2048_S256 (.inl rfl) rfl p).trans ?_
    exact Finset.sum_congr rfl fun k' _ => by rw [← hW k']; rfl
  exact congrArg₂ Ideal.div (hW k) hd

theorem step_apply (M : FVec Ideal S256x512 .f32) (m : Fin 512 → EReal) (p : Fin 256)
    (hy : ∀ k, yrow (ix2 (0 : Fin 1) k) = RobustSum.sqLen (fun k j => (Vb (ix2 k j) : EReal)) k)
    (hM : ∀ j, M (ix2 p j) = m j) (j : Fin 512) :
    step A' Vb yrow M (ix2 p j) = RobustSum.step (fun k => A' (ix2 p k)) (fun k j => (Vb (ix2 k j) : EReal)) m j := by
  have hw : ∀ k, weights A' Vb yrow M (ix2 p k)
      = RobustSum.weights (fun k => A' (ix2 p k)) (fun k j => (Vb (ix2 k j) : EReal)) m k := fun k => by
    rw [weights_apply, hy k]
    simp only [hM]
    rfl
  have e : step A' Vb yrow M (ix2 p j)
      = Ideal.ofBits .f32 0x00000000#32 * M (ix2 p j)
        + Ideal.ofBits .f32 0x3F800000#32 * mean Vb (weights A' Vb yrow M) (ix2 p j) := rfl
  rw [e, mean_apply Vb _ _ p hw j, hM j]
  rfl

theorem start_apply (p : Fin 256) (j : Fin 512) :
    start A' Vb (ix2 p j) = RobustSum.start (fun k => A' (ix2 p k)) (fun k j => (Vb (ix2 k j) : EReal)) j := by
  unfold start
  exact PlainDot.matmul_zero_apply dot_S256x2048_S2048x512_S256x512_1_0_0_1_n_n rfl rfl (fun _ _ => rfl) (fun _ _ => rfl)
    (fun _ _ => rfl) (fun _ _ => rfl) none (truncf .bf16 A' bitsLt_bf16_f32) Vb p j

theorem sqRow_apply (V3 : FVec Ideal S2048x512 .f32) (k : Fin 2048) :
    sqRow V3 (ix2 (0 : Fin 1) k) = RobustSum.sqLen (fun k j => (V3 (ix2 k j) : EReal)) k := by
  unfold sqRow
  exact (transpose_ix2_apply _ transposes_S2048x1_p1_0_S1x2048 0 k).trans
    ((LibColumns.shapeCast_a_a1_apply _ shapeCasts_S2048_S2048x1 k 0).trans
      (LibColumns.rowSum_apply (mulf V3 V3) 0x00000000#32 reduces_S2048x512_S2048 (.inl rfl) rfl k))

/-- Three updates of the starting rows, read at row `p`: the specification's row. -/
theorem three_steps (p : Fin 256)
    (hy : ∀ k, yrow (ix2 (0 : Fin 1) k) = RobustSum.sqLen (fun k j => (Vb (ix2 k j) : EReal)) k) (j : Fin 512) :
    step A' Vb yrow (step A' Vb yrow (step A' Vb yrow (start A' Vb))) (ix2 p j)
      = RobustSum.row (fun k => A' (ix2 p k)) (fun k j => (Vb (ix2 k j) : EReal)) j :=
  step_apply A' Vb yrow _ _ p hy (fun j => step_apply A' Vb yrow _ _ p hy (fun j => step_apply A' Vb yrow _ _ p hy
    (fun j => start_apply A' Vb p j) j) j) j

end Cert.KernelIdeal.Stages

end
-- ==== Proof.KernelValue.lean ====
/-
  The kernel's result array is the specification's function of its two arguments.

  Grid point `(b, i)` stages rows `256·i … 256·i + 255` of `A b` and the whole of `V b`, and writes back rows
  `256·i … 256·i + 255` of batch `b` of the result.  The body's stored value is three updates of the starting rows of its
  block, so entry `(0, p, j)` of what the point writes is the specification's row for the affinities `A (b, 256·i + p, ·)`
  and the points `V (b, ·, ·)`: that is entry `(b, 256·i + p, j)` of the whole-array function.  The 32 blocks tile the result:
  row `r` of batch `b` lies in the block of point `(b, r / 256)`.
-/
import proofs.«155479_j16544214024900_1_alg».proof.Proof.Gen.KernelIdeal.Value
import proofs.«155479_j16544214024900_1_alg».proof.Proof.KernelStages

noncomputable section

open scoped BigOperators

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-! ## The body's stored value is three updates of the starting rows -/

theorem pay5_eq (x1 : Vec Ideal S1x2048x512 .f32) : k0_pay5 x1 = Stages.sqRow (k0_pay3 x1) := rfl

theorem pay6_eq (x0 : Vec Ideal S1x256x2048 .f32) (x1 : Vec Ideal S1x2048x512 .f32) :
    k0_pay6 x0 x1 = Stages.start (k0_pay2 x0) (k0_pay4 x1) := rfl

theorem pay7_eq (x0 : Vec Ideal S1x256x2048 .f32) (x1 : Vec Ideal S1x2048x512 .f32) :
    k0_pay7 x0 x1 = Stages.mean (k0_pay4 x1) (Stages.weights (k0_pay2 x0) (k0_pay4 x1) (k0_pay5 x1) (k0_pay6 x0 x1)) := rfl

theorem pay9_eq (A' : FVec Ideal S256x2048 .f32) (Vb : FVec Ideal S2048x512 .bf16) (yrow : FVec Ideal S1x2048 .f32)
    (M0 Mn : FVec Ideal S256x512 .f32) :
    k0_pay9 A' Vb yrow M0 Mn k0_pay8 = Stages.step A' Vb yrow (Stages.blend M0 Mn) := rfl

theorem pay1_eq (A' : FVec Ideal S256x2048 .f32) (Vb : FVec Ideal S2048x512 .bf16) (yrow : FVec Ideal S1x2048 .f32)
    (M0 Mn : FVec Ideal S256x512 .f32) :
    k0_pay1 A' Vb (k0_pay9 A' Vb yrow M0 Mn k0_pay8) (k0_pay10 A' Vb yrow M0 Mn k0_pay8) (k0_pay11 A' Vb yrow M0 Mn k0_pay8)
        (Scalar.ofBits .f32 0x40000000#32)
      = shapeCast S1x256x512 (Stages.step A' Vb yrow (k0_pay9 A' Vb yrow M0 Mn k0_pay8)) Facts₀.shapeCasts_S256x512_S1x256x512 := rfl

theorem out_eq (x0 : Vec Ideal S1x256x2048 .f32) (x1 : Vec Ideal S1x2048x512 .f32) :
    out0_2 x0 x1 = shapeCast S1x256x512
      (Stages.step (k0_pay2 x0) (k0_pay4 x1) (k0_pay5 x1) (Stages.step (k0_pay2 x0) (k0_pay4 x1) (k0_pay5 x1)
        (Stages.step (k0_pay2 x0) (k0_pay4 x1) (k0_pay5 x1) (Stages.start (k0_pay2 x0) (k0_pay4 x1)))))
      Facts₀.shapeCasts_S256x512_S1x256x512 := by
  unfold out0_2
  rw [View.canon_unit_zero zero3]
  simp only [View.ld_unit_zero (S := S1x256x2048) zero3, View.ld_unit_zero (S := S1x2048x512) zero3]
  rw [pay1_eq, pay9_eq, pay7_eq, pay6_eq]
  rfl

/-- Entry `(0, p, j)` of the body's stored block is the specification's row for row `p` of the staged affinities and the
    staged points. -/
theorem out_apply (x0 : Vec Ideal S1x256x2048 .f32) (x1 : Vec Ideal S1x2048x512 .f32) (p : Fin 256) (j : Fin 512) :
    out0_2 x0 x1 (ix3 (0 : Fin 1) p j)
      = RobustSum.row (fun k => (x0 (ix3 (0 : Fin 1) p k) : EReal)) (fun k j => (x1 (ix3 (0 : Fin 1) k j) : EReal)) j := by
  rw [out_eq]
  refine (shapeCast_ab_1ab_apply _ Facts₀.shapeCasts_S256x512_S1x256x512 0 p j).trans ?_
  refine (Stages.three_steps (k0_pay2 x0) (k0_pay4 x1) (k0_pay5 x1) p (fun k => Stages.sqRow_apply (k0_pay3 x1) k) j).trans ?_
  have hA : (fun k : Fin 2048 => (k0_pay2 x0 (ix2 p k) : EReal)) = fun k => (x0 (ix3 (0 : Fin 1) p k) : EReal) :=
    funext fun k => shapeCast_1ab_ab_apply x0 Facts₀.shapeCasts_S1x256x2048_S256x2048 p k
  have hV : (fun (k : Fin 2048) (j : Fin 512) => (k0_pay4 x1 (ix2 k j) : EReal)) = fun k j => (x1 (ix3 (0 : Fin 1) k j) : EReal) :=
    funext fun k => funext fun j => shapeCast_1ab_ab_apply x1 Facts₀.shapeCasts_S1x2048x512_S2048x512 k j
  exact congrArg₂ (fun a v => RobustSum.row a v j) hA hV

/-! ## From blocks to the array -/

/-- The printed index maps over the 32 grid points: the affinities' block moves with the output's on the batch and row
    axes, the points' block on the batch axis only, and every other block coordinate is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 3 ∧ win0_2.index t (1 : Fin 3) ≤ 7 :=
  (by decide +kernel : ∀ t : Fin grid0.N, _)

/-- Every block of the result is some point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- What point `t` stores, entry by entry, is the whole-array function at the entry's place in the array. -/
theorem block_eq (c : Dev nD) (t : Fin cfg0.N) (y : S1x256x512.Idx) :
    out0_2 (iblk m c 0 t) (iblk m c 1 t) y
      = RobustSum.G (V m c main_arg0) (V m c main_arg1) (((cfg0.win 2).blk t).view.emb y) := by
  obtain ⟨e0, e1, e2, e3, e4, e5, e6, e7, e8⟩ := idx_facts t
  obtain ⟨z, p, j, rfl⟩ : ∃ (z : Fin 1) (p : Fin 256) (j : Fin 512), y = ix3 z p j := ⟨y 0, y 1, y 2, eq_ix3 y⟩
  obtain rfl : z = 0 := Subsingleton.elim _ _
  refine (out_apply (iblk m c 0 t) (iblk m c 1 t) p j).trans ?_
  have hj : ((cfg0.win 2).blk t).view.emb (ix3 (0 : Fin 1) p j) 2 = j := Fin.ext (by
    show win0_2.index t (2 : Fin 3) * 512 + 1 * j.val = j.val
    omega)
  have hA : ∀ k : Fin 2048, iblk m c 0 t (ix3 (0 : Fin 1) p k)
      = V m c main_arg0 (ix3 (((cfg0.win 2).blk t).view.emb (ix3 (0 : Fin 1) p j) 0) (((cfg0.win 2).blk t).view.emb (ix3 (0 : Fin 1) p j) 1) k) := fun k => by
    show V m c main_arg0 (((cfg0.win 0).blk t).view.emb (ix3 (0 : Fin 1) p k)) = _
    refine congrArg _ (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 256 + 1 * p.val = win0_2.index t (1 : Fin 3) * 256 + 1 * p.val; omega
    | ⟨2, _⟩ => show win0_0.index t (2 : Fin 3) * 2048 + 1 * k.val = k.val; omega
  have hV : ∀ (k : Fin 2048) (j' : Fin 512), iblk m c 1 t (ix3 (0 : Fin 1) k j')
      = V m c main_arg1 (ix3 (((cfg0.win 2).blk t).view.emb (ix3 (0 : Fin 1) p j) 0) k j') := fun k j' => by
    show V m c main_arg1 (((cfg0.win 1).blk t).view.emb (ix3 (0 : Fin 1) k j')) = _
    refine congrArg _ (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 2048 + 1 * k.val = k.val; omega
    | ⟨2, _⟩ => show win0_1.index t (2 : Fin 3) * 512 + 1 * j'.val = j'.val; omega
  simp only [RobustSum.G]
  rw [hj]
  exact congrArg₂ (fun a v => RobustSum.row a v j) (funext hA) (funext fun k => funext fun j' => hV k j')

/-- What point `t` writes back is block `t` of the whole-array function of the arguments as the region finds them. -/
theorem flushed_eq (c : Dev nD) (t : Fin cfg0.N) :
    (dats m 0 c).flushed 2 t
      = ((cfg0.win 2).blk t).view.read (Elt Ideal) (RobustSum.G (V m c main_arg0) (V m c main_arg1)) := by
  show (cfg0.win 2).cut (grid0.coords t) ((dats m 0 c).after 2 t) = _
  rw [after0_2]
  funext y
  exact block_eq m c t y

/-- An index of the array is in point `t`'s block iff each coordinate is in the block's range on its axis. -/
theorem mem_blk (t : Fin cfg0.N) (i : S4x2048x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v0).slice (win0_2.rect t)).set ↔ _
  rw [View.set_slice_whole, Rect.mem_set_unit]
  exact Iff.rfl

/-- The blocks tile the result: row `r` of batch `b` is in the block of the point with block index `(b, r / 256, 0)`. -/
theorem cover (i : S4x2048x512.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- The result array after the run is the whole-array function of the argument arrays. -/
theorem final (c : Dev nD) :
    (dats m 0 c).arrAt 2 cfg0.N
      = RobustSum.G (m ((c : Thread nD τ).loc main_arg0)) (m ((c : Thread nD τ).loc main_arg1)) :=
  (dats m 0 c).arrAt_eq_of_cover 2 (RobustSum.G (V m c main_arg0) (V m c main_arg1)) (fun t _ => flushed_eq m c t) cover

/-- The kernel's run: the result at the specification's function of the arguments, the arguments unchanged. -/
theorem run : θ_run defs (onTc (τ := τ) (main (F := Ideal))) ⟨m, fun _ => 0, ρ⟩ fun r => ∀ c : Dev nD,
      r.2.mem ((c : Thread nD τ).loc main_v0)
        = RobustSum.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowValue

end
-- ==== Proof.LibPointOps.lean ====
/-
  Host operations on a stack of point clouds `B × N × K` read at an index — general in the extents.

  * a product contracting the channel axis against the rows of an `M × K` matrix reads, at `(p, n, o)`,
    `∑ₖ lhs (p, n, k) · rhs (o, k)`;
  * the maximum over the points reads, at `(p, k)`, the fold of `max` from the initial value over `n` of `x (p, n, k)`:
    `max` is commutative and associative, so the order of the fold does not matter;
  * two arrays joined along the channel axis read the first array below its extent and the second past it;
  * a `B × K` array given a middle unit axis, and a `B × 1 × K` array spread over the points.
-/
import Idealize.ShloMosaic.Lib.ValueIdx
import Idealize.ShloMosaic.Lib.Pipeline.Value
import Idealize.ShloMosaic.PureOps.Ideal.Laws

noncomputable section

open scoped BigOperators

namespace Cert.LibPointOps

open Idealize.ShloMosaic Idealize.ShloMosaic.ValueIdx

variable {B N K M : ℕ} {α : Type}

/-- The host's product over the channel axis, at `(p, n, o)`: `∑ₖ lhs (p, n, k) · rhs (o, k)`. -/
theorem dotLast_apply {φ₁ φ₂ : FTy}
    (D : DotDims (⟨3, ![B, N, K]⟩ : Shape) (⟨2, ![M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 2).val)
    (r1 : ∀ (i : (⟨3, ![B, N, M]⟩ : Shape).Idx) (q : D.contr.Idx), (D.rhsIdx i q 1).val = (q ⟨0, by omega⟩).val)
    (prec : Option ContractPrecision)
    (lhs : FVec Ideal (⟨3, ![B, N, K]⟩ : Shape) φ₁) (rhs : FVec Ideal (⟨2, ![M, K]⟩ : Shape) φ₂)
    (p : Fin B) (n : Fin N) (o : Fin M) :
    Host.dotGeneral D prec lhs rhs (ix3 p n o) = ∑ k : Fin K, (lhs (ix3 p n k) : EReal) * (rhs (ix2 o k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 p n o) ((contrEquiv1 D K hr hs).symm k) = ix3 p n k := funext fun a => Fin.ext (by
    match a with
    | ⟨0, _⟩ => exact l0 _ _
    | ⟨1, _⟩ => exact l1 _ _
    | ⟨2, _⟩ => exact (l2 _ _).trans hk)
  have er : D.rhsIdx (ix3 p n o) ((contrEquiv1 D K hr hs).symm k) = ix2 o k := funext fun a => Fin.ext (by
    match a with
    | ⟨0, _⟩ => exact r0 _ _
    | ⟨1, _⟩ => exact (r1 _ _).trans hk)
  rw [el, er]

/-- The host's maximum over the points, at `(p, k)`: the fold of `max` from the initial value over `n`. -/
theorem hostMidMax_apply {φ : FTy} {u : Shape} (x : FVec Ideal ⟨3, ![B, N, K]⟩ φ) (init : u.Idx → Ideal φ)
    (h' : (⟨3, ![B, N, K]⟩ : Shape).ReducesTo [1] ⟨2, ![B, K]⟩) (h : (⟨3, ![B, N, K]⟩ : Shape).Reduces [1] ⟨2, ![B, K]⟩)
    (hu : 0 < u.numel) (p : Fin B) (k : Fin K) :
    Host.reduce FloatOps.maximumf x init h' hu (ix2 p k)
      = (Finset.univ : Finset (Fin N)).fold max (init (Shape.Idx.first hu)) (fun n : Fin N => x (ix3 p n k)) := by
  refine (Host.reduce_eq_fold_single FloatOps.maximumf x init h' h hu (ix2 p k)).trans ?_
  have hf : (x ∘ h.lift (ix2 p k)) = fun n : Fin N => x (ix3 p n k) := funext fun n => congrArg x
    (funext fun c => Fin.ext (by match c with | ⟨0, _⟩ => rfl | ⟨1, _⟩ => rfl | ⟨2, _⟩ => rfl))
  exact congrArg (fun f => Finset.fold max (init (Shape.Idx.first hu)) f (Finset.univ : Finset (Fin N))) hf

variable {K1 K2 : ℕ}

/-- Two arrays joined along the channel axis: below the first array's extent, the first array. -/
theorem concatLast_left (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : q.val < K1) :
    concatenate (⟨3, ![B, N, K]⟩ : Shape) 2 [⟨_, x₁⟩, ⟨_, x₂⟩] h (ix3 p n q) = x₁ (ix3 p n ⟨q.val, hq⟩) :=
  concatenate_pair_apply_left 2 x₁ x₂ h (ix3 p n q) rfl (ix3 p n ⟨q.val, hq⟩) (fun c => by
    match c with
    | ⟨0, _⟩ => rfl
    | ⟨1, _⟩ => rfl
    | ⟨2, _⟩ => rfl)

/-- Two arrays joined along the channel axis: past the first array's extent, the second array. -/
theorem concatLast_right (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : K1 ≤ q.val) (hlt : q.val - K1 < K2) :
    concatenate (⟨3, ![B, N, K]⟩ : Shape) 2 [⟨_, x₁⟩, ⟨_, x₂⟩] h (ix3 p n q) = x₂ (ix3 p n ⟨q.val - K1, hlt⟩) :=
  concatenate_pair_apply_right 2 x₁ x₂ h (ix3 p n q) rfl rfl (ix3 p n ⟨q.val - K1, hlt⟩) (fun c hc => by
    match c with
    | ⟨0, _⟩ => rfl
    | ⟨1, _⟩ => rfl
    | ⟨2, _⟩ => exact absurd rfl hc) (by
    show (q.val - K1) + K1 = q.val
    omega)

/-- A `B × K` array given a middle unit axis reads, at `(p, z, k)`, the array at `(p, k)`. -/
theorem bcast_BK_B1K_apply (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  broadcastInDim_apply _ h v (ix3 p z k) (ix2 p k) (fun a => match a with
    | ⟨0, _⟩ => by
      show p.val = if B = 1 then 0 else p.val
      split
      · have := p.isLt; omega
      · rfl
    | ⟨1, _⟩ => by
      show k.val = if K = 1 then 0 else k.val
      split
      · have := k.isLt; omega
      · rfl)

/-- A `B × 1 × K` array spread over the points reads, at `(p, n, k)`, the array at `(p, 0, k)`. -/
theorem bcast_B1K_BNK_apply (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  broadcastInDim_apply _ h v (ix3 p n k) (ix3 p (0 : Fin 1) k) (fun a => match a with
    | ⟨0, _⟩ => by
      show p.val = if B = 1 then 0 else p.val
      split
      · have := p.isLt; omega
      · rfl
    | ⟨1, _⟩ => by
      show 0 = if (1 : ℕ) = 1 then 0 else n.val
      rw [if_pos rfl]
    | ⟨2, _⟩ => by
      show k.val = if K = 1 then 0 else k.val
      split
      · have := k.isLt; omega
      · rfl)

/-- A `B × 1 × N` array with its unit axis dropped reads, at `(p, n)`, the array at `(p, 0, n)`. -/
theorem shapeCast_B1N_BN_apply (x : (⟨3, ![B, 1, N]⟩ : Shape).Idx → α)
    (h : (⟨3, ![B, 1, N]⟩ : Shape).ShapeCasts ⟨2, ![B, N]⟩) (p : Fin B) (n : Fin N) :
    shapeCast ⟨2, ![B, N]⟩ x h (ix2 p n) = x (ix3 p (0 : Fin 1) n) :=
  shapeCast_apply x h _ _ (by
    rw [Shape.rowMajor_val_three, Shape.rowMajor_val_two]
    show (p.val * 1 + 0) * N + n.val = p.val * N + n.val
    rw [Nat.mul_one, Nat.add_zero])

/-- An `B × 1 × K` array with its unit axis dropped, the other way: a `B × K` array cast to `B × 1 × K`. -/
theorem shapeCast_BN_B1N_apply (x : (⟨2, ![B, N]⟩ : Shape).Idx → α)
    (h : (⟨2, ![B, N]⟩ : Shape).ShapeCasts ⟨3, ![B, 1, N]⟩) (p : Fin B) (z : Fin 1) (n : Fin N) :
    shapeCast ⟨3, ![B, 1, N]⟩ x h (ix3 p z n) = x (ix2 p n) :=
  shapeCast_apply x h _ _ (by
    have hz : z.val = 0 := by omega
    rw [Shape.rowMajor_val_three, Shape.rowMajor_val_two]
    show p.val * N + n.val = (p.val * 1 + z.val) * N + n.val
    rw [hz, Nat.mul_one, Nat.add_zero])

end Cert.LibPointOps

end
-- ==== Proof.LibHostLastMin.lean ====
/-
  The host's least entry along the last axis of a rank-3 array, read at an index — general in the extents.

  A one-operand reduction with a minimum body along the last axis of an `a × b × c` array reads, at `(p, q)`, the fold
  of `min`, from the initial value, over the entries `(p, q, k)`: over the extended reals `min` is commutative and
  associative, so the order of the fold does not matter.
-/
import Idealize.ShloMosaic.Lib.ValueIdx
import Idealize.ShloMosaic.PureOps.Ideal.Laws

noncomputable section

namespace Cert.LibHostLastMin

open Idealize.ShloMosaic Idealize.ShloMosaic.ValueIdx

/-- Over the extended reals the host's reduction by `min` of an `a × b × c` array along its last axis reads, at
    `(p, q)`, the fold of `min` from the initial value over `k` of the entries `(p, q, k)`. -/
theorem hostLastMin_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.minimumf x init h' hu (ix2 p q)
      = (Finset.univ : Finset (Fin c)).fold min (init (Shape.Idx.first hu)) (fun k : Fin c => x (ix3 p q k)) := by
  refine (Host.reduce_eq_fold_single FloatOps.minimumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold min (init (Shape.Idx.first hu)) f (Finset.univ : Finset (Fin c))) hf

/-- The host's sum of an `a × b × c` array along its last axis reads, at `(p, q)`, the initial value plus the sum over
    `k` of the entries `(p, q, k)`. -/
theorem hostLastSum_apply {a b c : ℕ} {φ : FTy} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => ?_)
  exact congrArg x (funext fun d => Fin.ext (by match d with | ⟨0, _⟩ => rfl | ⟨1, _⟩ => rfl | ⟨2, _⟩ => rfl))

end Cert.LibHostLastMin

end
-- ==== Proof.LibBatchRows.lean ====
/-
  Host operations on a stack of matrices `B × N × K`, read at an index — general in the extents.

  * a batched product with `B × K × M` (contract the first operand's last axis against the second's middle axis) reads, at
    `(b, p, c)`, `∑ₖ lhs (b, p, k) · rhs (b, k, c)`;
  * a batched product with `B × M × K` (contract the last axis of both: each row against the rows of the second operand)
    reads, at `(b, p, c)`, `∑ₖ lhs (b, p, k) · rhs (b, c, k)`;
  * a `B × N` array given a trailing unit axis reads, at `(b, p, z)`, the array at `(b, p)`, and a `B × N × 1` array spread
    over `M` columns reads, at `(b, p, c)`, the array at `(b, p, 0)`;
  * a scalar constant spread over any shape reads, at every index, the number its word denotes.
  The dimension numbers of a product index its sum by the positions of the contraction shape; the coordinate facts asked
  for are the ones a program's literal dimension numbers decide.
-/
import Idealize.ShloMosaic.Lib.ValueIdx
import Idealize.ShloMosaic.Lib.Pipeline.Value
import Idealize.ShloMosaic.PureOps.Ideal.Laws

noncomputable section

open scoped BigOperators

namespace Cert.LibBatchRows

open Idealize.ShloMosaic Idealize.ShloMosaic.ValueIdx

variable {B N K M : ℕ} {α : Type}

/-- The host's batched product `lhs @ rhs`, at `(b, p, c)`: `∑ₖ lhs (b, p, k) · rhs (b, k, c)`. -/
theorem batchDot_apply {φ₁ φ₂ : FTy}
    (D : DotDims (⟨3, ![B, N, K]⟩ : Shape) (⟨3, ![B, K, M]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 0).val)
    (r1 : ∀ (i : (⟨3, ![B, N, M]⟩ : Shape).Idx) (q : D.contr.Idx), (D.rhsIdx i q 1).val = (q ⟨0, by omega⟩).val)
    (r2 : ∀ (i : (⟨3, ![B, N, M]⟩ : Shape).Idx) (q : D.contr.Idx), (D.rhsIdx i q 2).val = (i 2).val)
    (prec : Option ContractPrecision)
    (lhs : FVec Ideal (⟨3, ![B, N, K]⟩ : Shape) φ₁) (rhs : FVec Ideal (⟨3, ![B, K, M]⟩ : Shape) φ₂)
    (b : Fin B) (p : Fin N) (c : Fin M) :
    Host.dotGeneral D prec lhs rhs (ix3 b p c) = ∑ k : Fin K, (lhs (ix3 b p k) : EReal) * (rhs (ix3 b k c) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 b p c) ((contrEquiv1 D K hr hs).symm k) = ix3 b p k := funext fun a => Fin.ext (by
    match a with
    | ⟨0, _⟩ => exact l0 _ _
    | ⟨1, _⟩ => exact l1 _ _
    | ⟨2, _⟩ => exact (l2 _ _).trans hk)
  have er : D.rhsIdx (ix3 b p c) ((contrEquiv1 D K hr hs).symm k) = ix3 b k c := funext fun a => Fin.ext (by
    match a with
    | ⟨0, _⟩ => exact r0 _ _
    | ⟨1, _⟩ => exact (r1 _ _).trans hk
    | ⟨2, _⟩ => exact r2 _ _)
  rw [el, er]

/-- The host's batched product of rows with rows, at `(b, p, c)`: `∑ₖ lhs (b, p, k) · rhs (b, c, k)`. -/
theorem batchDotRows_apply {φ₁ φ₂ : FTy}
    (D : DotDims (⟨3, ![B, N, K]⟩ : Shape) (⟨3, ![B, M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 0).val)
    (r1 : ∀ (i : (⟨3, ![B, N, M]⟩ : Shape).Idx) (q : D.contr.Idx), (D.rhsIdx i q 1).val = (i 2).val)
    (r2 : ∀ (i : (⟨3, ![B, N, M]⟩ : Shape).Idx) (q : D.contr.Idx), (D.rhsIdx i q 2).val = (q ⟨0, by omega⟩).val)
    (prec : Option ContractPrecision)
    (lhs : FVec Ideal (⟨3, ![B, N, K]⟩ : Shape) φ₁) (rhs : FVec Ideal (⟨3, ![B, M, K]⟩ : Shape) φ₂)
    (b : Fin B) (p : Fin N) (c : Fin M) :
    Host.dotGeneral D prec lhs rhs (ix3 b p c) = ∑ k : Fin K, (lhs (ix3 b p k) : EReal) * (rhs (ix3 b c k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 b p c) ((contrEquiv1 D K hr hs).symm k) = ix3 b p k := funext fun a => Fin.ext (by
    match a with
    | ⟨0, _⟩ => exact l0 _ _
    | ⟨1, _⟩ => exact l1 _ _
    | ⟨2, _⟩ => exact (l2 _ _).trans hk)
  have er : D.rhsIdx (ix3 b p c) ((contrEquiv1 D K hr hs).symm k) = ix3 b c k := funext fun a => Fin.ext (by
    match a with
    | ⟨0, _⟩ => exact r0 _ _
    | ⟨1, _⟩ => exact r1 _ _
    | ⟨2, _⟩ => exact (r2 _ _).trans hk)
  rw [el, er]

/-- A `B × N` array given a trailing unit axis reads, at `(b, p, z)`, the array at `(b, p)`. -/
theorem bcast_BN_BN1_apply (v : (⟨2, ![B, N]⟩ : Shape).Idx → α)
    (h : (⟨2, ![B, N]⟩ : Shape).BroadcastsInDim ⟨3, ![B, N, 1]⟩ ![0, 1]) (b : Fin B) (p : Fin N) (z : Fin 1) :
    broadcastInDim ⟨3, ![B, N, 1]⟩ ![0, 1] h v (ix3 b p z) = v (ix2 b p) :=
  broadcastInDim_apply _ h v (ix3 b p z) (ix2 b p) (fun a => match a with
    | ⟨0, _⟩ => by
      show b.val = if B = 1 then 0 else b.val
      split
      · have := b.isLt; omega
      · rfl
    | ⟨1, _⟩ => by
      show p.val = if N = 1 then 0 else p.val
      split
      · have := p.isLt; omega
      · rfl)

/-- A `B × N × 1` array spread over `M` columns reads, at `(b, p, c)`, the array at `(b, p, 0)`. -/
theorem bcast_BN1_BNM_apply (v : (⟨3, ![B, N, 1]⟩ : Shape).Idx → α)
    (h : (⟨3, ![B, N, 1]⟩ : Shape).BroadcastsInDim ⟨3, ![B, N, M]⟩ ![0, 1, 2]) (b : Fin B) (p : Fin N) (c : Fin M) :
    broadcastInDim ⟨3, ![B, N, M]⟩ ![0, 1, 2] h v (ix3 b p c) = v (ix3 b p (0 : Fin 1)) :=
  broadcastInDim_apply _ h v (ix3 b p c) (ix3 b p (0 : Fin 1)) (fun a => match a with
    | ⟨0, _⟩ => by
      show b.val = if B = 1 then 0 else b.val
      split
      · have := b.isLt; omega
      · rfl
    | ⟨1, _⟩ => by
      show p.val = if N = 1 then 0 else p.val
      split
      · have := p.isLt; omega
      · rfl
    | ⟨2, _⟩ => by
      show 0 = if (1 : ℕ) = 1 then 0 else c.val
      rw [if_pos rfl])

/-- A scalar constant spread over a shape reads, at every index, the extended real its word denotes. -/
theorem bcast_const_apply {t : Shape} {φ : FTy} (w : BitVec φ.bits)
    (h : (⟨0, ![]⟩ : Shape).BroadcastsInDim t ![]) (i : t.Idx) :
    broadcastInDim t ![] h (constant (F := Ideal) (⟨0, ![]⟩ : Shape) φ w) i = Ideal.ofBits φ w := rfl

end Cert.LibBatchRows

end
-- ==== Proof.RefStages.lean ====
/-
  The reference's stages on the whole arrays, read one entry at a time.

  The reference keeps all rows of all four batches in one `4 × 2048 × 512` array `M` and repeats one stage three times: the
  squared lengths of the rows (a sum along the last axis, kept as a trailing unit axis and spread over 2048 columns), the
  squared lengths of the points (the same sum for `V`, kept as a middle unit axis and spread over the 2048 rows), the inner
  products of rows with points (a batched product contracting the last axis of both), the weights, their absolute sum
  along the last axis, and the batched product of the normalised weights with the points.  Read at entry `(b, p, ·)` the
  stage is the specification's row step applied to row `p` of batch `b`; the host's sums start from the zero word, which
  denotes `0`.
-/
import proofs.«155479_j16544214024900_1_alg».proof.Proof.Gen.ReferenceIdeal
import proofs.«155479_j16544214024900_1_alg».proof.Proof.Spec
import proofs.«155479_j16544214024900_1_alg».proof.Proof.LibPointOps
import proofs.«155479_j16544214024900_1_alg».proof.Proof.LibHostLastMin
import proofs.«155479_j16544214024900_1_alg».proof.Proof.LibBatchRows

noncomputable section

open scoped BigOperators

namespace Cert.ReferenceIdeal.Stages

open Cert.ReferenceIdeal Cert.ReferenceIdeal.Facts₀ Idealize.ShloMosaic Idealize.ShloMosaic.ValueIdx

variable (A : FVec Ideal S4x2048x2048 .f32) (V : FVec Ideal S4x2048x512 .f32)

/-- The squared lengths of the rows of `M`, each spread along its row. -/
def rowSq (M : FVec Ideal S4x2048x512 .f32) : FVec Ideal S4x2048x2048 .f32 :=
  broadcastInDim S4x2048x2048 ![0, 1, 2] bcast_S4x2048x1_S4x2048x2048_0_1_2
    (broadcastInDim S4x2048x1 ![0, 1] bcast_S4x2048_S4x2048x1_0_1
      (Host.reduceAdd (F := Ideal) (mulf M M) (constant (F := Ideal) S_ .f32 0x00000000#32) reducesTo_S4x2048x512_S4x2048_d2 h_S_))

/-- The squared lengths of the points, spread over the rows. -/
def ptSq : FVec Ideal S4x2048x2048 .f32 :=
  broadcastInDim S4x2048x2048 ![0, 1, 2] bcast_S4x1x2048_S4x2048x2048_0_1_2
    (broadcastInDim S4x1x2048 ![0, 2] bcast_S4x2048_S4x1x2048_0_2
      (Host.reduceAdd (F := Ideal) (mulf V V) (constant (F := Ideal) S_ .f32 0x00000000#32) reducesTo_S4x2048x512_S4x2048_d2 h_S_))

/-- The inner products of the rows of `M` with the points of their batch. -/
def cross (M : FVec Ideal S4x2048x512 .f32) : FVec Ideal S4x2048x2048 .f32 :=
  Host.dotGeneral (F := Ideal) dot_S4x2048x512_S4x2048x512_S4x2048x2048_2_2_1_1_0_0 none M V

/-- The weights of the points against the rows of `M`. -/
def weights (M : FVec Ideal S4x2048x512 .f32) : FVec Ideal S4x2048x2048 .f32 :=
  mulf (Host.divf (F := Ideal) (broadcastInDim S4x2048x2048 ![] bcast_S_S4x2048x2048 (constant (F := Ideal) S_ .f32 0x3F800000#32))
      (addf (Host.sqrt (F := Ideal) (maximumf (subf (addf (rowSq M) (ptSq V))
              (mulf (broadcastInDim S4x2048x2048 ![] bcast_S_S4x2048x2048 (constant (F := Ideal) S_ .f32 0x40000000#32)) (cross V M)))
            (broadcastInDim S4x2048x2048 ![] bcast_S_S4x2048x2048 (constant (F := Ideal) S_ .f32 0x00000000#32))))
        (broadcastInDim S4x2048x2048 ![] bcast_S_S4x2048x2048 (constant (F := Ideal) S_ .f32 0x3C23D70A#32)))) A

/-- The weights divided by their row's absolute sum, times the points. -/
def mean (W : FVec Ideal S4x2048x2048 .f32) : FVec Ideal S4x2048x512 .f32 :=
  Host.dotGeneral (F := Ideal) dot_S4x2048x2048_S4x2048x512_S4x2048x512_2_1_1_2_0_0 none
    (Host.divf (F := Ideal) W (broadcastInDim S4x2048x2048 ![0, 1, 2] bcast_S4x2048x1_S4x2048x2048_0_1_2
      (maximumf (broadcastInDim S4x2048x1 ![0, 1] bcast_S4x2048_S4x2048x1_0_1
          (Host.reduceAdd (F := Ideal) (Host.absf (F := Ideal) W) (constant (F := Ideal) S_ .f32 0x00000000#32) reducesTo_S4x2048x2048_S4x2048_d2 h_S_))
        (broadcastInDim S4x2048x1 ![] bcast_S_S4x2048x1 (constant (F := Ideal) S_ .f32 0x2B8CBCCC#32))))) V

/-- `0 · M + 1 · mean W`. -/
def update (M : FVec Ideal S4x2048x512 .f32) (W : FVec Ideal S4x2048x2048 .f32) : FVec Ideal S4x2048x512 .f32 :=
  addf (mulf (broadcastInDim S4x2048x512 ![] bcast_S_S4x2048x512 (constant (F := Ideal) S_ .f32 0x00000000#32)) M)
    (mulf (broadcastInDim S4x2048x512 ![] bcast_S_S4x2048x512 (constant (F := Ideal) S_ .f32 0x3F800000#32)) (mean V W))

/-- One update of all rows. -/
def step (M : FVec Ideal S4x2048x512 .f32) : FVec Ideal S4x2048x512 .f32 := update V M (weights A V M)

/-- The starting rows. -/
def start : FVec Ideal S4x2048x512 .f32 :=
  Host.dotGeneral (F := Ideal) dot_S4x2048x2048_S4x2048x512_S4x2048x512_2_1_1_2_0_0 none A V

theorem rowSq_apply (M : FVec Ideal S4x2048x512 .f32) (b : Fin 4) (p k : Fin 2048) :
    rowSq M (ix3 b p k) = ∑ j : Fin 512, (M (ix3 b p j) : EReal) * (M (ix3 b p j) : EReal) := by
  unfold rowSq
  refine (LibBatchRows.bcast_BN1_BNM_apply _ bcast_S4x2048x1_S4x2048x2048_0_1_2 b p k).trans ?_
  refine (LibBatchRows.bcast_BN_BN1_apply _ bcast_S4x2048_S4x2048x1_0_1 b p 0).trans ?_
  refine (LibHostLastMin.hostLastSum_apply (mulf M M) _ reducesTo_S4x2048x512_S4x2048_d2 (by decide) h_S_ b p).trans ?_
  show Ideal.ofBits .f32 0x00000000#32 + _ = _
  rw [Ideal.ofBits_zero_f32, zero_add]
  rfl

theorem ptSq_apply (b : Fin 4) (p k : Fin 2048) :
    ptSq V (ix3 b p k) = RobustSum.sqLen (fun k j => (V (ix3 b k j) : EReal)) k := by
  unfold ptSq
  refine (LibPointOps.bcast_B1K_BNK_apply _ bcast_S4x1x2048_S4x2048x2048_0_1_2 b p k).trans ?_
  refine (LibPointOps.bcast_BK_B1K_apply _ bcast_S4x2048_S4x1x2048_0_2 b 0 k).trans ?_
  refine (LibHostLastMin.hostLastSum_apply (mulf V V) _ reducesTo_S4x2048x512_S4x2048_d2 (by decide) h_S_ b k).trans ?_
  show Ideal.ofBits .f32 0x00000000#32 + _ = _
  rw [Ideal.ofBits_zero_f32, zero_add]
  rfl

theorem cross_apply (M : FVec Ideal S4x2048x512 .f32) (b : Fin 4) (p k : Fin 2048) :
    cross V M (ix3 b p k) = ∑ j : Fin 512, (M (ix3 b p j) : EReal) * (V (ix3 b k j) : EReal) := by
  unfold cross
  exact LibBatchRows.batchDotRows_apply dot_S4x2048x512_S4x2048x512_S4x2048x2048_2_2_1_1_0_0 rfl rfl (fun _ _ => rfl) (fun _ _ => rfl)
    (fun _ _ => rfl) (fun _ _ => rfl) (fun _ _ => rfl) (fun _ _ => rfl) none M V b p k

theorem weights_apply (M : FVec Ideal S4x2048x512 .f32) (b : Fin 4) (p k : Fin 2048) :
    weights A V M (ix3 b p k)
      = RobustSum.weight (∑ j : Fin 512, (M (ix3 b p j) : EReal) * (M (ix3 b p j) : EReal))
          (RobustSum.sqLen (fun k j => (V (ix3 b k j) : EReal)) k)
          (∑ j : Fin 512, (M (ix3 b p j) : EReal) * (V (ix3 b k j) : EReal)) (A (ix3 b p k)) := by
  have e : weights A V M (ix3 b p k)
      = RobustSum.weight (rowSq M (ix3 b p k)) (ptSq V (ix3 b p k)) (cross V M (ix3 b p k)) (A (ix3 b p k)) := rfl
  rw [e, rowSq_apply, cross_apply, ptSq_apply]

theorem mean_apply (W : FVec Ideal S4x2048x2048 .f32) (w : Fin 2048 → EReal) (b : Fin 4) (p : Fin 2048)
    (hW : ∀ k, W (ix3 b p k) = w k) (j : Fin 512) :
    mean V W (ix3 b p j) = ∑ k : Fin 2048, Ideal.div (w k) (RobustSum.absSum w) * (V (ix3 b k j) : EReal) := by
  unfold mean
  refine (LibBatchRows.batchDot_apply dot_S4x2048x2048_S4x2048x512_S4x2048x512_2_1_1_2_0_0 rfl rfl (fun _ _ => rfl) (fun _ _ => rfl)
    (fun _ _ => rfl) (fun _ _ => rfl) (fun _ _ => rfl) (fun _ _ => rfl) none _ V b p j).trans ?_
  refine Finset.sum_congr rfl fun k _ => congrArg (· * (V (ix3 b k j) : EReal)) ?_
  have hd : broadcastInDim S4x2048x2048 ![0, 1, 2] bcast_S4x2048x1_S4x2048x2048_0_1_2
      (maximumf (broadcastInDim S4x2048x1 ![0, 1] bcast_S4x2048_S4x2048x1_0_1
          (Host.reduceAdd (F := Ideal) (Host.absf (F := Ideal) W) (constant (F := Ideal) S_ .f32 0x00000000#32) reducesTo_S4x2048x2048_S4x2048_d2 h_S_))
        (broadcastInDim S4x2048x1 ![] bcast_S_S4x2048x1 (constant (F := Ideal) S_ .f32 0x2B8CBCCC#32))) (ix3 b p k)
      = RobustSum.absSum w := by
    refine (LibBatchRows.bcast_BN1_BNM_apply _ bcast_S4x2048x1_S4x2048x2048_0_1_2 b p k).trans ?_
    refine congrArg (max · (Ideal.ofBits .f32 0x2B8CBCCC#32)) ?_
    refine (LibBatchRows.bcast_BN_BN1_apply _ bcast_S4x2048_S4x2048x1_0_1 b p 0).trans ?_
    refine (LibHostLastMin.hostLastSum_apply (Host.absf (F := Ideal) W) _ reducesTo_S4x2048x2048_S4x2048_d2 (by decide) h_S_ b p).trans ?_
    show Ideal.ofBits .f32 0x00000000#32 + _ = _
    rw [Ideal.ofBits_zero_f32, zero_add]
    exact Finset.sum_congr rfl fun k' _ => by rw [← hW k']; rfl
  exact congrArg₂ Ideal.div (hW k) hd

theorem step_apply (M : FVec Ideal S4x2048x512 .f32) (m : Fin 512 → EReal) (b : Fin 4) (p : Fin 2048)
    (hM : ∀ j, M (ix3 b p j) = m j) (j : Fin 512) :
    step A V M (ix3 b p j) = RobustSum.step (fun k => A (ix3 b p k)) (fun k j => (V (ix3 b k j) : EReal)) m j := by
  have hw : ∀ k, weights A V M (ix3 b p k)
      = RobustSum.weights (fun k => A (ix3 b p k)) (fun k j => (V (ix3 b k j) : EReal)) m k := fun k => by
    rw [weights_apply]
    simp only [hM]
    rfl
  have e : step A V M (ix3 b p j)
      = Ideal.ofBits .f32 0x00000000#32 * M (ix3 b p j)
        + Ideal.ofBits .f32 0x3F800000#32 * mean V (weights A V M) (ix3 b p j) := rfl
  rw [e, mean_apply V _ _ b p hw j, hM j]
  rfl

theorem start_apply (b : Fin 4) (p : Fin 2048) (j : Fin 512) :
    start A V (ix3 b p j) = RobustSum.start (fun k => A (ix3 b p k)) (fun k j => (V (ix3 b k j) : EReal)) j := by
  unfold start
  exact LibBatchRows.batchDot_apply dot_S4x2048x2048_S4x2048x512_S4x2048x512_2_1_1_2_0_0 rfl rfl (fun _ _ => rfl) (fun _ _ => rfl)
    (fun _ _ => rfl) (fun _ _ => rfl) (fun _ _ => rfl) (fun _ _ => rfl) none A V b p j

/-- Three updates of the starting rows are the specification's whole result. -/
theorem three_steps : step A V (step A V (step A V (start A V))) = RobustSum.G A V := by
  funext i
  obtain ⟨b, p, j, rfl⟩ : ∃ (b : Fin 4) (p : Fin 2048) (j : Fin 512), i = ix3 b p j := ⟨i 0, i 1, i 2, eq_ix3 i⟩
  exact step_apply A V _ _ b p (fun j => step_apply A V _ _ b p (fun j => step_apply A V _ _ b p
    (fun j => start_apply A V b p j) j) j) j

end Cert.ReferenceIdeal.Stages

end
-- ==== Proof.RefValue.lean ====
/-
  The reference's result array is the specification's function of its two arguments.

  The reference's run ends with its result at a composed term of the arguments, stated over six named intermediates: the
  starting rows, and alternately the weights against the current rows and the rows updated with them.  Each named
  intermediate is, by unfolding, a stage applied to the earlier ones, so the result is three updates of the starting rows,
  which the stages' entry-by-entry reading identifies with the specification.
-/
import proofs.«155479_j16544214024900_1_alg».proof.Proof.Gen.ReferenceIdeal.Run
import proofs.«155479_j16544214024900_1_alg».proof.Proof.RefStages

noncomputable section

namespace Cert.ReferenceIdeal.RowValue

open Cert.ReferenceIdeal Cert.ReferenceIdeal.Gen Cert.ReferenceIdeal.Value Idealize.ShloMosaic Idealize.ShloMosaic.TcCoe Idealize.SL.Sem
open Idealize.ShloMosaic.StableHlo

variable (V0 : Valuation τ sig (Elt Ideal))

theorem v0_eq : res_main_v0 V0 = Stages.start (V0 (Proc.devRef .tc main_arg0)) (V0 (Proc.devRef .tc main_arg1)) := rfl

theorem v21_eq : res_main_v21 V0
    = Stages.weights (V0 (Proc.devRef .tc main_arg0)) (V0 (Proc.devRef .tc main_arg1)) (res_main_v0 V0) := rfl

theorem v34_eq : res_main_v34 V0 = Stages.update (V0 (Proc.devRef .tc main_arg1)) (res_main_v0 V0) (res_main_v21 V0) := rfl

theorem v55_eq : res_main_v55 V0
    = Stages.weights (V0 (Proc.devRef .tc main_arg0)) (V0 (Proc.devRef .tc main_arg1)) (res_main_v34 V0) := rfl

theorem v68_eq : res_main_v68 V0 = Stages.update (V0 (Proc.devRef .tc main_arg1)) (res_main_v34 V0) (res_main_v55 V0) := rfl

theorem v89_eq : res_main_v89 V0
    = Stages.weights (V0 (Proc.devRef .tc main_arg0)) (V0 (Proc.devRef .tc main_arg1)) (res_main_v68 V0) := rfl

/-- The last update of the rows, over the named intermediates, is the specification's function of the arguments. -/
theorem result_eq :
    Stages.update (V0 (Proc.devRef .tc main_arg1)) (res_main_v68 V0) (res_main_v89 V0)
      = RobustSum.G (V0 (Proc.devRef .tc main_arg0)) (V0 (Proc.devRef .tc main_arg1)) := by
  rw [v89_eq, v68_eq, v55_eq, v34_eq, v21_eq, v0_eq]
  exact Stages.three_steps (V0 (Proc.devRef .tc main_arg0)) (V0 (Proc.devRef .tc main_arg1))

/-- The reference's run: the result at the specification's function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102)
        = RobustSum.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq (launchContents m c)), (h c).2⟩)
    (Value.run (F := Ideal) m ρ)

end Cert.ReferenceIdeal.RowValue

end
-- ==== Proof.lean ====
/-
  The claim: a robust weighted mean, computed block by block on the chip and all at once on the host, is one function.

  Both programs start every row of every batch at the affinity-weighted sum of the batch's points and update it three
  times: squared distances to all points through `|M|² + |v|² − 2⟨M, v⟩` clamped at zero, weights `a / (√· + 0.01)`
  normalised by their absolute sum (kept above `10⁻¹²`), and the new row `0 · M + 1 · Σ weight · point`.  The kernel does this
  for 256 rows at a time against the whole point table of one batch; the reference for all rows of all batches at once.
  Over the extended reals a change of float format is the identity and a sum has no order, and the two programs apply the
  same operations to the same operands in the same order, so no algebra is needed: every stage of either program, read at
  one entry, is the same row step (Proof/Spec.lean), the kernel's 32 blocks tile the result (Proof/KernelValue.lean), and
  the reference's composed term unfolds to the same three steps (Proof/RefValue.lean).  Nothing depends on the inputs
  being finite.  The three frames are the generated runs; the idealization rewrote nothing, so `preserves` is trivial.
-/
import proofs.«155479_j16544214024900_1_alg».proof.Defs
import proofs.«155479_j16544214024900_1_alg».proof.Proof.Gen.Kernel
import proofs.«155479_j16544214024900_1_alg».proof.Proof.Gen.Kernel.Skeleton
import proofs.«155479_j16544214024900_1_alg».proof.Proof.Gen.Kernel.Launch
import proofs.«155479_j16544214024900_1_alg».proof.Proof.Gen.Kernel.Points
import proofs.«155479_j16544214024900_1_alg».proof.Proof.Gen.Kernel.Frame
import proofs.«155479_j16544214024900_1_alg».proof.Proof.Gen.KernelIdeal
import proofs.«155479_j16544214024900_1_alg».proof.Proof.Gen.KernelIdeal.Skeleton
import proofs.«155479_j16544214024900_1_alg».proof.Proof.Gen.KernelIdeal.Launch
import proofs.«155479_j16544214024900_1_alg».proof.Proof.Gen.KernelIdeal.Points
import proofs.«155479_j16544214024900_1_alg».proof.Proof.Gen.KernelIdeal.Frame
import proofs.«155479_j16544214024900_1_alg».proof.Proof.Gen.ReferenceIdeal
import proofs.«155479_j16544214024900_1_alg».proof.Proof.Gen.Pre_finite_inputs
import proofs.«155479_j16544214024900_1_alg».proof.Proof.Gen.KernelIdeal.Value
import proofs.«155479_j16544214024900_1_alg».proof.Proof.Gen.ReferenceIdeal.Run
import proofs.«155479_j16544214024900_1_alg».proof.Proof.KernelValue
import proofs.«155479_j16544214024900_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the same function of arguments that agree. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.RowValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
